-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x64 : Shape := ⟨3, ![16, 1024, 64]⟩
abbrev S16x1024x1024 : Shape := ⟨3, ![16, 1024, 1024]⟩
abbrev S8x64x64 : Shape := ⟨3, ![8, 64, 64]⟩
abbrev S128 : Shape := ⟨1, ![128]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S16x1024x64 .f32) (main_arg1 : IVec S16x1024x1024 32) (main_arg2 : FVec F S8x64x64 .f32) (main_arg3 : FVec F S8x64x64 .f32) (main_arg4 : FVec F S128 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S8x64x64 .f32 := Host.absf main_arg2
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S8x64x64 .f32 := Host.absf main_arg3
  let main_cst_2 : FVec F S_ .f32 := constant S_ .f32 0x7F800000#32
  let main_v10 : FVec F S8x64x64 .f32 := broadcastInDim S8x64x64 ![] bcast_S_S8x64x64 main_cst_2
  let main_v11 : IVec S8x64x64 1 := cmpf .olt main_v9 main_v10
  let main_c_3 : IVec S_ 1 := constantI S_ 1 1#1
  let main_v12 : IVec S_ 1 := (fun x v => Host.reduce IntOp.andi x v reducesTo_S8x64x64_S_d0_1_2 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S16x1024x64 : Shape := ⟨3, ![16, 1024, 64]⟩
abbrev S16x1024x1024 : Shape := ⟨3, ![16, 1024, 1024]⟩
abbrev S8x64x64 : Shape := ⟨3, ![8, 64, 64]⟩
abbrev S128 : Shape := ⟨1, ![128]⟩
abbrev S512x64 : Shape := ⟨2, ![512, 64]⟩
abbrev S1x128 : Shape := ⟨2, ![1, 128]⟩
abbrev S16x1024x128 : Shape := ⟨3, ![16, 1024, 128]⟩
abbrev S1x1024x64 : Shape := ⟨3, ![1, 1024, 64]⟩
abbrev S1x1024x1024 : Shape := ⟨3, ![1, 1024, 1024]⟩
abbrev S1x1024x128 : Shape := ⟨3, ![1, 1024, 128]⟩
abbrev S1024x64 : Shape := ⟨2, ![1024, 64]⟩
abbrev S64x1024 : Shape := ⟨2, ![64, 1024]⟩
abbrev S1024x1024 : Shape := ⟨2, ![1024, 1024]⟩
abbrev S512x1024 : Shape := ⟨2, ![512, 1024]⟩
abbrev S128x1024 : Shape := ⟨2, ![128, 1024]⟩
abbrev S1024x128 : Shape := ⟨2, ![1024, 128]⟩

abbrev nBuf : Space → Nat
  | .hbm => 9
  | .vmem => 9
  | .smem => 0
  | _ => 0

abbrev bufTy : (tb : Table) → Fin (tcTables nBuf tb) → BufTy
  | .hbm, ⟨0, _⟩ => ⟨S16x1024x64, .f32⟩
  | .hbm, ⟨1, _⟩ => ⟨S16x1024x1024, .i32⟩
  | .hbm, ⟨2, _⟩ => ⟨S8x64x64, .f32⟩
  | .hbm, ⟨3, _⟩ => ⟨S8x64x64, .f32⟩
  | .hbm, ⟨4, _⟩ => ⟨S128, .f32⟩
  | .hbm, ⟨5, _⟩ => ⟨S512x64, .f32⟩
  | .hbm, ⟨6, _⟩ => ⟨S512x64, .f32⟩
  | .hbm, ⟨7, _⟩ => ⟨S1x128, .f32⟩
  | .hbm, ⟨8, _⟩ => ⟨S16x1024x128, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x1024, .i32⟩
  | .local _ .vmem, ⟨3, _⟩ => ⟨S1x1024x1024, .i32⟩
  | .local _ .vmem, ⟨4, _⟩ => ⟨S512x64, .f32⟩
  | .local _ .vmem, ⟨5, _⟩ => ⟨S512x64, .f32⟩
  | .local _ .vmem, ⟨6, _⟩ => ⟨S1x128, .f32⟩
  | .local _ .vmem, ⟨7, _⟩ => ⟨S1x1024x128, .f32⟩
  | .local _ .vmem, ⟨8, _⟩ => ⟨S1x1024x128, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x64x64_S512x64 : S8x64x64.ShapeCasts S512x64
  shapeCasts_S128_S1x128 : S128.ShapeCasts S1x128
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S512x64_S512x64_0_0 : ∀ a, (![0, 0] : Fin 2 → Nat) a + S512x64.size a ≤ S512x64.size a
  h_S512x64 : 0 < S512x64.numel
  shapeCasts_S512x64_S512x64 : S512x64.ShapeCasts S512x64
  natLt_1_32 : 1 < 32
  transposes_S1024x1024_p1_0_S1024x1024 : S1024x1024.Transposes [1, 0] S1024x1024
  slices_S512x1024_o0_0_S64x1024 : S512x1024.Slices ![0, 0] S64x1024
  slices_S512x1024_o64_0_S64x1024 : S512x1024.Slices ![64, 0] S64x1024
  slices_S512x1024_o128_0_S64x1024 : S512x1024.Slices ![128, 0] S64x1024
  slices_S512x1024_o192_0_S64x1024 : S512x1024.Slices ![192, 0] S64x1024
  slices_S512x1024_o256_0_S64x1024 : S512x1024.Slices ![256, 0] S64x1024
  slices_S512x1024_o320_0_S64x1024 : S512x1024.Slices ![320, 0] S64x1024
  slices_S512x1024_o384_0_S64x1024 : S512x1024.Slices ![384, 0] S64x1024
  slices_S512x1024_o448_0_S64x1024 : S512x1024.Slices ![448, 0] S64x1024
  concatenates_S64x1024_S64x1024_S128x1024_d0 : Shape.Concatenates [S64x1024, S64x1024] S128x1024 0
  transposes_S128x1024_p1_0_S1024x128 : S128x1024.Transposes [1, 0] S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S512x64_S64x1024_S512x1024_1_0_0_1_n_n_wf : DotDims.WF S512x64 S64x1024 S512x1024 [1] [0] [0] [1] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S16x1024x64.size a
  hwx0_0 : ∀ i : grid0.Coords, EltTy.bits .f32 = 32 ∨ (Rect.block (s := S16x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .i32 = 32 ∨ (Rect.block (s := S16x1024x1024) S1x1024x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S512x64.size a
  hwx0_3 : ∀ i : grid0.Coords, EltTy.bits .f32 = 32 ∨ (Rect.block (s := S512x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x128.size a ≤ S16x1024x128.size a
  hwx0_5 : ∀ i : grid0.Coords, EltTy.bits .f32 = 32 ∨ (Rect.block (s := S16x1024x128) S1x1024x128.size (cc0_transform_5 i) (hinb0_5 i)).WholeWords (EltTy.packing .f32)

variable [Facts₀]

def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x64 : Shape := ⟨3, ![16, 1024, 64]⟩
abbrev S16x1024x1024 : Shape := ⟨3, ![16, 1024, 1024]⟩
abbrev S8x64x64 : Shape := ⟨3, ![8, 64, 64]⟩
abbrev S128 : Shape := ⟨1, ![128]⟩
abbrev S_ : Shape := ⟨0, ![]⟩
abbrev S1x64x64 : Shape := ⟨3, ![1, 64, 64]⟩
abbrev S64x64 : Shape := ⟨2, ![64, 64]⟩
abbrev S16x1024x128 : Shape := ⟨3, ![16, 1024, 128]⟩
abbrev S1x1x128 : Shape := ⟨3, ![1, 1, 128]⟩

abbrev nBuf : Space → Nat
  | .hbm => 158
  | .vmem => 0
  | .smem => 0
  | _ => 0

abbrev hbmTy0_0 (i : Nat) : BufTy := match i % 128 with
  | 0 => ⟨S16x1024x64, .f32⟩
  | 1 => ⟨S16x1024x1024, .i32⟩
  | 2 => ⟨S8x64x64, .f32⟩
  | 3 => ⟨S8x64x64, .f32⟩
  | 4 => ⟨S128, .f32⟩
  | 5 => ⟨S_, .f32⟩
  | 6 => ⟨S16x1024x64, .f32⟩
  | 7 => ⟨S_, .i32⟩
  | 8 => ⟨S16x1024x1024, .i32⟩
  | 9 => ⟨S16x1024x1024, .i1⟩
  | 10 => ⟨S16x1024x1024, .f32⟩
  | 11 => ⟨S1x64x64, .f32⟩
  | 12 => ⟨S64x64, .f32⟩
  | 13 => ⟨S16x1024x64, .f32⟩
  | 14 => ⟨S16x1024x64, .f32⟩
  | 15 => ⟨S16x1024x64, .f32⟩
  | 16 => ⟨S_, .i32⟩
  | 17 => ⟨S16x1024x1024, .i32⟩
  | 18 => ⟨S16x1024x1024, .i1⟩
  | 19 => ⟨S16x1024x1024, .f32⟩
  | 20 => ⟨S1x64x64, .f32⟩
  | 21 => ⟨S64x64, .f32⟩
  | 22 => ⟨S16x1024x64, .f32⟩
  | 23 => ⟨S16x1024x64, .f32⟩
  | 24 => ⟨S16x1024x64, .f32⟩
  | 25 => ⟨S_, .i32⟩
  | 26 => ⟨S16x1024x1024, .i32⟩
  | 27 => ⟨S16x1024x1024, .i1⟩
  | 28 => ⟨S16x1024x1024, .f32⟩
  | 29 => ⟨S1x64x64, .f32⟩
  | 30 => ⟨S64x64, .f32⟩
  | 31 => ⟨S16x1024x64, .f32⟩
  | 32 => ⟨S16x1024x64, .f32⟩
  | 33 => ⟨S16x1024x64, .f32⟩
  | 34 => ⟨S_, .i32⟩
  | 35 => ⟨S16x1024x1024, .i32⟩
  | 36 => ⟨S16x1024x1024, .i1⟩
  | 37 => ⟨S16x1024x1024, .f32⟩
  | 38 => ⟨S1x64x64, .f32⟩
  | 39 => ⟨S64x64, .f32⟩
  | 40 => ⟨S16x1024x64, .f32⟩
  | 41 => ⟨S16x1024x64, .f32⟩
  | 42 => ⟨S16x1024x64, .f32⟩
  | 43 => ⟨S_, .i32⟩
  | 44 => ⟨S16x1024x1024, .i32⟩
  | 45 => ⟨S16x1024x1024, .i1⟩
  | 46 => ⟨S16x1024x1024, .f32⟩
  | 47 => ⟨S1x64x64, .f32⟩
  | 48 => ⟨S64x64, .f32⟩
  | 49 => ⟨S16x1024x64, .f32⟩
  | 50 => ⟨S16x1024x64, .f32⟩
  | 51 => ⟨S16x1024x64, .f32⟩
  | 52 => ⟨S_, .i32⟩
  | 53 => ⟨S16x1024x1024, .i32⟩
  | 54 => ⟨S16x1024x1024, .i1⟩
  | 55 => ⟨S16x1024x1024, .f32⟩
  | 56 => ⟨S1x64x64, .f32⟩
  | 57 => ⟨S64x64, .f32⟩
  | 58 => ⟨S16x1024x64, .f32⟩
  | 59 => ⟨S16x1024x64, .f32⟩
  | 60 => ⟨S16x1024x64, .f32⟩
  | 61 => ⟨S_, .i32⟩
  | 62 => ⟨S16x1024x1024, .i32⟩
  | 63 => ⟨S16x1024x1024, .i1⟩
  | 64 => ⟨S16x1024x1024, .f32⟩
  | 65 => ⟨S1x64x64, .f32⟩
  | 66 => ⟨S64x64, .f32⟩
  | 67 => ⟨S16x1024x64, .f32⟩
  | 68 => ⟨S16x1024x64, .f32⟩
  | 69 => ⟨S16x1024x64, .f32⟩
  | 70 => ⟨S_, .i32⟩
  | 71 => ⟨S16x1024x1024, .i32⟩
  | 72 => ⟨S16x1024x1024, .i1⟩
  | 73 => ⟨S16x1024x1024, .f32⟩
  | 74 => ⟨S1x64x64, .f32⟩
  | 75 => ⟨S64x64, .f32⟩
  | 76 => ⟨S16x1024x64, .f32⟩
  | 77 => ⟨S16x1024x64, .f32⟩
  | 78 => ⟨S16x1024x64, .f32⟩
  | 79 => ⟨S16x1024x1024, .i32⟩
  | 80 => ⟨S_, .f32⟩
  | 81 => ⟨S16x1024x64, .f32⟩
  | 82 => ⟨S_, .i32⟩
  | 83 => ⟨S16x1024x1024, .i32⟩
  | 84 => ⟨S16x1024x1024, .i1⟩
  | 85 => ⟨S16x1024x1024, .f32⟩
  | 86 => ⟨S1x64x64, .f32⟩
  | 87 => ⟨S64x64, .f32⟩
  | 88 => ⟨S16x1024x64, .f32⟩
  | 89 => ⟨S16x1024x64, .f32⟩
  | 90 => ⟨S16x1024x64, .f32⟩
  | 91 => ⟨S_, .i32⟩
  | 92 => ⟨S16x1024x1024, .i32⟩
  | 93 => ⟨S16x1024x1024, .i1⟩
  | 94 => ⟨S16x1024x1024, .f32⟩
  | 95 => ⟨S1x64x64, .f32⟩
  | 96 => ⟨S64x64, .f32⟩
  | 97 => ⟨S16x1024x64, .f32⟩
  | 98 => ⟨S16x1024x64, .f32⟩
  | 99 => ⟨S16x1024x64, .f32⟩
  | 100 => ⟨S_, .i32⟩
  | 101 => ⟨S16x1024x1024, .i32⟩
  | 102 => ⟨S16x1024x1024, .i1⟩
  | 103 => ⟨S16x1024x1024, .f32⟩
  | 104 => ⟨S1x64x64, .f32⟩
  | 105 => ⟨S64x64, .f32⟩
  | 106 => ⟨S16x1024x64, .f32⟩
  | 107 => ⟨S16x1024x64, .f32⟩
  | 108 => ⟨S16x1024x64, .f32⟩
  | 109 => ⟨S_, .i32⟩
  | 110 => ⟨S16x1024x1024, .i32⟩
  | 111 => ⟨S16x1024x1024, .i1⟩
  | 112 => ⟨S16x1024x1024, .f32⟩
  | 113 => ⟨S1x64x64, .f32⟩
  | 114 => ⟨S64x64, .f32⟩
  | 115 => ⟨S16x1024x64, .f32⟩
  | 116 => ⟨S16x1024x64, .f32⟩
  | 117 => ⟨S16x1024x64, .f32⟩
  | 118 => ⟨S_, .i32⟩
  | 119 => ⟨S16x1024x1024, .i32⟩
  | 120 => ⟨S16x1024x1024, .i1⟩
  | 121 => ⟨S16x1024x1024, .f32⟩
  | 122 => ⟨S1x64x64, .f32⟩
  | 123 => ⟨S64x64, .f32⟩
  | 124 => ⟨S16x1024x64, .f32⟩
  | 125 => ⟨S16x1024x64, .f32⟩
  | 126 => ⟨S16x1024x64, .f32⟩
  | 127 => ⟨S_, .i32⟩
  | _ => ⟨S16x1024x64, .f32⟩

abbrev hbmTy0_1 (i : Nat) : BufTy := match i % 128 with
  | 0 => ⟨S16x1024x1024, .i32⟩
  | 1 => ⟨S16x1024x1024, .i1⟩
  | 2 => ⟨S16x1024x1024, .f32⟩
  | 3 => ⟨S1x64x64, .f32⟩
  | 4 => ⟨S64x64, .f32⟩
  | 5 => ⟨S16x1024x64, .f32⟩
  | 6 => ⟨S16x1024x64, .f32⟩
  | 7 => ⟨S16x1024x64, .f32⟩
  | 8 => ⟨S_, .i32⟩
  | 9 => ⟨S16x1024x1024, .i32⟩
  | 10 => ⟨S16x1024x1024, .i1⟩
  | 11 => ⟨S16x1024x1024, .f32⟩
  | 12 => ⟨S1x64x64, .f32⟩
  | 13 => ⟨S64x64, .f32⟩
  | 14 => ⟨S16x1024x64, .f32⟩
  | 15 => ⟨S16x1024x64, .f32⟩
  | 16 => ⟨S16x1024x64, .f32⟩
  | 17 => ⟨S_, .i32⟩
  | 18 => ⟨S16x1024x1024, .i32⟩
  | 19 => ⟨S16x1024x1024, .i1⟩
  | 20 => ⟨S16x1024x1024, .f32⟩
  | 21 => ⟨S1x64x64, .f32⟩
  | 22 => ⟨S64x64, .f32⟩
  | 23 => ⟨S16x1024x64, .f32⟩
  | 24 => ⟨S16x1024x64, .f32⟩
  | 25 => ⟨S16x1024x64, .f32⟩
  | 26 => ⟨S16x1024x128, .f32⟩
  | 27 => ⟨S1x1x128, .f32⟩
  | 28 => ⟨S16x1024x128, .f32⟩
  | 29 => ⟨S16x1024x128, .f32⟩
  | _ => ⟨S16x1024x64, .f32⟩

abbrev hbmTy (i : Nat) : BufTy := match i / 128 with
  | 0 => hbmTy0_0 i
  | 1 => hbmTy0_1 i
  | _ => ⟨S16x1024x64, .f32⟩

abbrev bufTy : (tb : Table) → Fin (tcTables nBuf tb) → BufTy
  | .hbm, ⟨i, _⟩ => hbmTy i
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_6 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_c_8 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c_9 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_c_10 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_c_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_c_12 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_c_13 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_c_14 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_c_15 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩

abbrev nD : Nat := 1
abbrev τ : Topo := Topo.v7x

variable {F : FTy → Type} [FloatOps F]

class Facts₀ : Prop where
  bcast_S_S16x1024x64 : S_.BroadcastsInDim S16x1024x64 (![] : Fin 0 → Fin S16x1024x64.rank)
  bcast_S_S16x1024x1024 : S_.BroadcastsInDim S16x1024x1024 (![] : Fin 0 → Fin S16x1024x1024.rank)
  slices_S8x64x64_S1x64x64_0_0_0 : S8x64x64.Slices ![0, 0, 0] S1x64x64
  shapeCasts_S1x64x64_S64x64 : S1x64x64.ShapeCasts S64x64
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  transposes_S16x1024x1024_S16x1024x1024_0_2_1 : S16x1024x1024.Transposes [0, 2, 1] S16x1024x1024
  concatenates_S16x1024x64_S16x1024x64_S16x1024x128_d2 : Shape.Concatenates [S16x1024x64, S16x1024x64] S16x1024x128 2
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  dot_S16x1024x64_S64x64_S16x1024x64_2_1_01_0_n_n_wf : DotDims.WF S16x1024x64 S64x64 S16x1024x64 [2] [1] [0, 1] [0] [] []
  dot_S16x1024x1024_S16x1024x64_S16x1024x64_2_1_1_2_0_0_wf : DotDims.WF S16x1024x1024 S16x1024x64 S16x1024x64 [2] [1] [1] [2] [0] [0]

variable [Facts₀]

def dot_S16x1024x64_S64x64_S16x1024x64_2_1_01_0_n_n : DotDims S16x1024x64 S64x64 S16x1024x64 where
  lhsContracting := [2]
  rhsContracting := [1]
  lhsNonContracting := [0, 1]
  rhsNonContracting := [0]
  lhsBatch := []
  rhsBatch := []
  wf := dot_S16x1024x64_S64x64_S16x1024x64_2_1_01_0_n_n_wf
def dot_S16x1024x1024_S16x1024x64_S16x1024x64_2_1_1_2_0_0 : DotDims S16x1024x1024 S16x1024x64 S16x1024x64 where
  lhsContracting := [2]
  rhsContracting := [1]
  lhsNonContracting := [1]
  rhsNonContracting := [2]
  lhsBatch := [0]
  rhsBatch := [0]
  wf := dot_S16x1024x1024_S16x1024x64_S16x1024x64_2_1_1_2_0_0_wf

class Facts : Prop extends Facts₀ where

variable [Facts]
-- ==== Proof.Spec.lean ====
/-
  The message step of a gated graph network, for one graph, as a function of coordinates.

  A graph has 1024 nodes, each with a state of 64 features, and every ordered pair of nodes `(v, w)` carries an
  edge label, a 32-bit word. There are eight edge classes, `0 … 7`, each with its own 64 × 64 weight matrix, once
  for incoming and once for outgoing edges. Node `v`'s incoming message, feature `i`, is

      Σ_e Σ_w [label (v, w) = e] · (Σ_j h (w, j) · Win (e, i, j)),

  the outgoing one the same with the label of `(w, v)` and `Wout`; the result row of `v` is the incoming message in
  columns `0 … 63`, the outgoing one in columns `64 … 127`, plus a bias per column. The sum over the classes is taken
  as both programs take it: from the zero word, class after class.
-/
import Idealize.ShloMosaic.PureOps.Ideal
import Idealize.ShloMosaic.Lib.ValueIdx

noncomputable section

open scoped BigOperators

namespace Cert.Message

open Idealize.ShloMosaic

/-- The indicator of "the label is the class", as the conversion of the comparison's bit: `1` when the two words are
    equal, `0` otherwise. -/
def ind (a e : BitVec 32) : EReal := FloatOps.uitofp (F := Ideal) .f32 (IntOp.cmpi .eq a e)

/-- The same bit widened to 32 bits and read as a signed integer is the same number: a bit is `0` or `1`. -/
theorem sitofp_setWidth_eq_ind (a e : BitVec 32) :
    FloatOps.sitofp (F := Ideal) .f32 ((IntOp.cmpi .eq a e).setWidth 32) = ind a e := by
  unfold ind
  rcases BitVec.eq_zero_or_eq_one (IntOp.cmpi .eq a e) with h | h <;> rw [h] <;> rfl

/-- The eight classes' terms added up from the zero word, class after class. -/
def acc8 (T : (e : ℕ) → e < 8 → EReal) : EReal :=
  Ideal.ofBits .f32 0x00000000#32 + T 0 (by decide) + T 1 (by decide) + T 2 (by decide) + T 3 (by decide)
    + T 4 (by decide) + T 5 (by decide) + T 6 (by decide) + T 7 (by decide)

/-- One node's message, one feature: `A w` is the label of the edge between the node and `w` (in the direction
    that counts), `W e j` the class-`e` weight row of the feature. -/
def msg (h : Fin 1024 → Fin 64 → EReal) (A : Fin 1024 → BitVec 32) (W : Fin 8 → Fin 64 → EReal) : EReal :=
  acc8 fun e he => ∑ w : Fin 1024, ind (A w) (BitVec.ofNat 32 e) * ∑ j : Fin 64, h w j * W ⟨e, he⟩ j

/-- One graph's result at node `v`, column `c`. -/
def graph (h : Fin 1024 → Fin 64 → EReal) (adj : Fin 1024 → Fin 1024 → BitVec 32)
    (Win Wout : Fin 8 → Fin 64 → Fin 64 → EReal) (bias : Fin 128 → EReal) (v : Fin 1024) (c : Fin 128) : EReal :=
  (if hc : c.val < 64 then msg h (fun w => adj v w) (fun e j => Win e ⟨c.val, hc⟩ j)
    else msg h (fun w => adj w v) (fun e j => Wout e ⟨c.val - 64, by have := c.isLt; omega⟩ j)) + bias c

/-- The whole result: graph `b` of the batch, node `v`, column `c`, from the five argument arrays. -/
def G (a0 : (⟨3, ![16, 1024, 64]⟩ : Shape).Idx → EReal) (a1 : (⟨3, ![16, 1024, 1024]⟩ : Shape).Idx → BitVec 32)
    (a2 a3 : (⟨3, ![8, 64, 64]⟩ : Shape).Idx → EReal) (a4 : (⟨1, ![128]⟩ : Shape).Idx → EReal) :
    (⟨3, ![16, 1024, 128]⟩ : Shape).Idx → EReal := fun y =>
  graph (fun w j => a0 (ValueIdx.ix3 (y 0 : Fin 16) w j)) (fun p q => a1 (ValueIdx.ix3 (y 0 : Fin 16) p q))
    (fun e i j => a2 (ValueIdx.ix3 e i j)) (fun e i j => a3 (ValueIdx.ix3 e i j)) (fun c => a4 (ValueIdx.ix1 c))
    (y 1 : Fin 1024) (y 2 : Fin 128)

end Cert.Message

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.KernelBody.lean ====
/-
  The kernel's body read at an index.

  For one graph the body forms the stacked product `P = Wstack · hᵀ` (512 × 1024: row `64 e + i` is class `e`,
  feature `i`; column `w` is node `w`), once with the incoming and once with the outgoing weights. For each class
  `e` it takes the 64 rows of `P` from row `64 e` and multiplies them by the class's 0/1 mask of the labels:
  by the transposed mask for the incoming message, `Σ_w P (64 e + i, w) · [adj (v, w) = e]`, and by the mask itself
  for the outgoing one, `Σ_w P (64 e + i, w) · [adj (w, v) = e]`. The eight classes are added up from the zero word
  in order, in three stretches of the body; the two 64 × 1024 sums are stacked, the stack is transposed, and the
  bias row is added to every row. Every product is taken into a zero accumulator, so it is the plain sum over the
  contracted index, and the changes of float format between the steps are the identity on the extended reals.
  Read at node `v`, column `c` the result is the message of the loaded graph (`Cert.Message.graph`), once the
  factors of each product are put in the order the message is written in.
-/
import proofs.«118873_j26465588478646_2_alg».proof.Proof.Gen.KernelIdeal.Frame
import proofs.«118873_j26465588478646_2_alg».proof.Proof.Spec
import proofs.«118873_j26465588478646_2_alg».proof.Proof.LibDot
import Idealize.ShloMosaic.Lib.ValueLayout
import Idealize.ShloMosaic.Lib.Pipeline.Value
import Idealize.ShloMosaic.PureOps.Ideal.Laws

noncomputable section

open scoped BigOperators

namespace Cert.KernelBody

open Cert.KernelIdeal Cert.KernelIdeal.Gen Idealize.ShloMosaic Idealize.ShloMosaic.ValueIdx Cert.Message

/-- A rows-by-columns product into the zero accumulator at `(a, c)`: the sum over the contracted index. -/
theorem prod_apply {A B C : ℕ} {φ₁ φ₂ : FTy} (D : DotDims ⟨2, ![A, B]⟩ ⟨2, ![B, C]⟩ ⟨2, ![A, C]⟩)
    (h1 : D.lhsContracting = [1]) (h2 : D.rhsContracting = [0]) (h3 : D.lhsNonContracting = [0])
    (h4 : D.rhsNonContracting = [1]) (h5 : D.lhsBatch = []) (h6 : D.rhsBatch = [])
    (l : FVec Ideal ⟨2, ![A, B]⟩ φ₁) (r : FVec Ideal ⟨2, ![B, C]⟩ φ₂) (a : Fin A) (c : Fin C) :
    matmul D none l r (constant (F := Ideal) ⟨2, ![A, C]⟩ .f32 0x00000000#32) (ix2 a c)
      = ∑ k : Fin B, l (ix2 a k) * r (ix2 k c) :=
  (Ideal.matmul_constant_zero_apply D none l r (ix2 a c)).trans (PlainDot.sum_eq D h1 h2 h3 h4 h5 h6 l r a c)

/-- The stacked weights times the transposed node states: row `r` of the stack against node `w`. -/
theorem stacked_apply (h : Vec Ideal S1x1024x64 .f32) (wt : Vec Ideal S512x64 .f32) (r : Fin 512) (w : Fin 1024) :
    k0_pay4 (F := Ideal) h wt (ix2 r w) = ∑ j : Fin 64, wt (ix2 r j) * h (ix3 (0 : Fin 1) w j) := by
  unfold k0_pay4 k0_pay2
  refine (prod_apply dot_S512x64_S64x1024_S512x1024_1_0_0_1_n_n rfl rfl rfl rfl rfl rfl _ _ r w).trans ?_
  refine Finset.sum_congr rfl fun j _ => ?_
  refine congrArg₂ (· * ·) ?_ ?_
  · exact congrFun (shapeCast_self wt _) (ix2 r j)
  · exact (transpose_ix2_apply _ _ j w).trans (shapeCast_1ab_ab_apply h _ w j)

/-- The class mask as the body spells it: the comparison's bit widened, converted and narrowed. -/
def classMask (A : IVec S1024x1024 32) (e : BitVec 32) : FVec Ideal S1024x1024 .bf16 :=
  truncf .bf16 (sitofp .f32 (extui 32 (cmpi .eq A (broadcast S1024x1024 e)) natLt_1_32)) bitsLt_bf16_f32

/-- At `(p, q)` it is the indicator that the label of `(p, q)` is the class. -/
theorem classMask_apply (A : IVec S1024x1024 32) (e : BitVec 32) (p q : Fin 1024) :
    classMask A e (ix2 p q) = ind (A (ix2 p q)) e :=
  sitofp_setWidth_eq_ind _ _

/-- Incoming edges, one class: 64 rows of the stacked product (from row `o`) against the TRANSPOSED class mask. At
    feature `i`, node `v`: the sum over `w` of the stacked product at `(o + i, w)` where `(v, w)` is of the class. -/
theorem inTerm_apply (hw : FVec Ideal S512x1024 .bf16) (A : IVec S1024x1024 32) (e : BitVec 32) (o : ℕ)
    (hs : S512x1024.Slices ![o, 0] S64x1024) (i : Fin 64) (v : Fin 1024) (r : Fin 512) (hr : r.val = o + i.val) :
    matmul dot_S64x1024_S1024x1024_S64x1024_1_0_0_1_n_n none (extractStridedSlice S64x1024 ![o, 0] hw hs)
        (transpose S1024x1024 [1, 0] (classMask A e) transposes_S1024x1024_p1_0_S1024x1024)
        (constant S64x1024 .f32 0x00000000#32) (ix2 i v)
      = ∑ w : Fin 1024, hw (ix2 r w) * ind (A (ix2 v w)) e := by
  refine (prod_apply _ rfl rfl rfl rfl rfl rfl _ _ i v).trans ?_
  refine Finset.sum_congr rfl fun w _ => ?_
  refine congrArg₂ (· * ·) (slice2_axis0_apply o hw hs i w r hr) ?_
  exact (transpose_ix2_apply _ _ w v).trans (classMask_apply A e v w)

/-- Outgoing edges, one class: the same rows against the class mask itself: `(w, v)` is of the class. -/
theorem outTerm_apply (hw : FVec Ideal S512x1024 .bf16) (A : IVec S1024x1024 32) (e : BitVec 32) (o : ℕ)
    (hs : S512x1024.Slices ![o, 0] S64x1024) (i : Fin 64) (v : Fin 1024) (r : Fin 512) (hr : r.val = o + i.val) :
    matmul dot_S64x1024_S1024x1024_S64x1024_1_0_0_1_n_n none (extractStridedSlice S64x1024 ![o, 0] hw hs)
        (classMask A e) (constant S64x1024 .f32 0x00000000#32) (ix2 i v)
      = ∑ w : Fin 1024, hw (ix2 r w) * ind (A (ix2 w v)) e := by
  refine (prod_apply _ rfl rfl rfl rfl rfl rfl _ _ i v).trans ?_
  refine Finset.sum_congr rfl fun w _ => ?_
  exact congrArg₂ (· * ·) (slice2_axis0_apply o hw hs i w r hr) (classMask_apply A e w v)

/-- One class's incoming sum at feature `i`, node `v`, over the stacked product `hw` and the labels `A`. -/
def sIn (hw : FVec Ideal S512x1024 .bf16) (A : IVec S1024x1024 32) (i : Fin 64) (v : Fin 1024) (e : ℕ) (he : e < 8) : EReal :=
  ∑ w : Fin 1024, hw (ix2 (⟨64 * e + i.val, by have := i.isLt; omega⟩ : Fin 512) w) * ind (A (ix2 v w)) (BitVec.ofNat 32 e)

/-- One class's outgoing sum. -/
def sOut (hw : FVec Ideal S512x1024 .bf16) (A : IVec S1024x1024 32) (i : Fin 64) (v : Fin 1024) (e : ℕ) (he : e < 8) : EReal :=
  ∑ w : Fin 1024, hw (ix2 (⟨64 * e + i.val, by have := i.isLt; omega⟩ : Fin 512) w) * ind (A (ix2 w v)) (BitVec.ofNat 32 e)

/-- Classes 0 and 1 of the incoming sum, from the zero word. -/
theorem in01_apply (h : Vec Ideal S1x1024x64 .f32) (a : Vec Ideal S1x1024x1024 .i32) (wi : Vec Ideal S512x64 .f32)
    (i : Fin 64) (v : Fin 1024) :
    k0_pay10 (F := Ideal) h a wi (ix2 i v)
      = Ideal.ofBits .f32 0x00000000#32 + sIn (k0_pay4 h wi) (k0_pay3 a) i v 0 (by decide) + sIn (k0_pay4 h wi) (k0_pay3 a) i v 1 (by decide) := by
  unfold k0_pay10 k0_pay6 k0_pay8
  dsimp only
  exact congrArg₂ (· + ·)
    (congrArg₂ (· + ·) rfl (inTerm_apply (k0_pay4 h wi) (k0_pay3 a) 0#32 0 _ i v _ (by show 64 * 0 + i.val = 0 + i.val; omega)))
    (inTerm_apply (k0_pay4 h wi) (k0_pay3 a) 1#32 64 _ i v _ (by show 64 * 1 + i.val = 64 + i.val; omega))

/-- Class 0 of the outgoing sum, from the zero word. -/
theorem out0_apply (h : Vec Ideal S1x1024x64 .f32) (a : Vec Ideal S1x1024x1024 .i32) (wo : Vec Ideal S512x64 .f32)
    (i : Fin 64) (v : Fin 1024) :
    k0_pay7 (F := Ideal) h a wo (ix2 i v)
      = Ideal.ofBits .f32 0x00000000#32 + sOut (k0_pay5 h wo) (k0_pay3 a) i v 0 (by decide) := by
  unfold k0_pay7 k0_pay6
  dsimp only
  exact congrArg₂ (· + ·) rfl
    (outTerm_apply (k0_pay5 h wo) (k0_pay3 a) 0#32 0 _ i v _ (by show 64 * 0 + i.val = 0 + i.val; omega))

/-- Classes 1 to 4 of the outgoing sum, added to what came before (`prev`). -/
theorem out1234_apply (A : IVec S1024x1024 32) (hw : FVec Ideal S512x1024 .bf16) (prev : FVec Ideal S64x1024 .f32)
    (i : Fin 64) (v : Fin 1024) :
    k0_pay14 (F := Ideal) A hw prev (classMask A 1#32)
        (extractStridedSlice S64x1024 ![64, 0] hw slices_S512x1024_o64_0_S64x1024) (ix2 i v)
      = prev (ix2 i v) + sOut hw A i v 1 (by decide) + sOut hw A i v 2 (by decide) + sOut hw A i v 3 (by decide)
          + sOut hw A i v 4 (by decide) := by
  unfold k0_pay14 k0_pay11 k0_pay12 k0_pay13
  dsimp only
  exact congrArg₂ (· + ·) (congrArg₂ (· + ·) (congrArg₂ (· + ·) (congrArg₂ (· + ·) rfl
    (outTerm_apply hw A 1#32 64 _ i v _ (by show 64 * 1 + i.val = 64 + i.val; omega)))
    (outTerm_apply hw A 2#32 128 _ i v _ (by show 64 * 2 + i.val = 128 + i.val; omega)))
    (outTerm_apply hw A 3#32 192 _ i v _ (by show 64 * 3 + i.val = 192 + i.val; omega)))
    (outTerm_apply hw A 4#32 256 _ i v _ (by show 64 * 4 + i.val = 256 + i.val; omega))

/-- Classes 2 to 5 of the incoming sum, added to what came before. -/
theorem in2345_apply (A : IVec S1024x1024 32) (hw : FVec Ideal S512x1024 .bf16) (prev : FVec Ideal S64x1024 .f32)
    (i : Fin 64) (v : Fin 1024) :
    k0_pay17 (F := Ideal) A hw prev (ix2 i v)
      = prev (ix2 i v) + sIn hw A i v 2 (by decide) + sIn hw A i v 3 (by decide) + sIn hw A i v 4 (by decide)
          + sIn hw A i v 5 (by decide) := by
  unfold k0_pay17 k0_pay11 k0_pay12 k0_pay13 k0_pay15
  dsimp only
  exact congrArg₂ (· + ·) (congrArg₂ (· + ·) (congrArg₂ (· + ·) (congrArg₂ (· + ·) rfl
    (inTerm_apply hw A 2#32 128 _ i v _ (by show 64 * 2 + i.val = 128 + i.val; omega)))
    (inTerm_apply hw A 3#32 192 _ i v _ (by show 64 * 3 + i.val = 192 + i.val; omega)))
    (inTerm_apply hw A 4#32 256 _ i v _ (by show 64 * 4 + i.val = 256 + i.val; omega)))
    (inTerm_apply hw A 5#32 320 _ i v _ (by show 64 * 5 + i.val = 320 + i.val; omega))

/-- The last statements: classes 6, 7 of the incoming sum and 5, 6, 7 of the outgoing one, the two 64 × 1024 sums
    stacked, the stack transposed to 1024 × 128, the bias row added to every row. At node `v`, column `c`: the
    incoming sum's feature `c` for `c < 64`, the outgoing sum's feature `c - 64` otherwise, plus the bias of column `c`. -/
theorem last_apply (A : IVec S1024x1024 32) (hwI hwO : FVec Ideal S512x1024 .bf16) (prevO prevI : FVec Ideal S64x1024 .f32)
    (bb : Vec Ideal S1x128 .f32) (u : Fin 1) (v : Fin 1024) (c : Fin 128) :
    k0_pay1 (F := Ideal) A hwI hwO prevO (classMask A 5#32)
        (extractStridedSlice S64x1024 ![320, 0] hwO slices_S512x1024_o320_0_S64x1024) prevI bb (ix3 u v c)
      = (if hc : c.val < 64 then
          prevI (ix2 ⟨c.val, hc⟩ v) + sIn hwI A ⟨c.val, hc⟩ v 6 (by decide) + sIn hwI A ⟨c.val, hc⟩ v 7 (by decide)
        else
          prevO (ix2 (⟨c.val - 64, by have := c.isLt; omega⟩ : Fin 64) v)
            + sOut hwO A ⟨c.val - 64, by have := c.isLt; omega⟩ v 5 (by decide)
            + sOut hwO A ⟨c.val - 64, by have := c.isLt; omega⟩ v 6 (by decide)
            + sOut hwO A ⟨c.val - 64, by have := c.isLt; omega⟩ v 7 (by decide))
        + bb (ix2 (0 : Fin 1) c) := by
  unfold k0_pay1
  dsimp only
  refine (shapeCast_ab_1ab_apply _ _ u v c).trans ?_
  refine congrArg₂ (· + ·) ?_ ((broadcastTo_1b_ab_apply _ _ v c).trans (congrFun (shapeCast_self bb _) _))
  refine (transpose_ix2_apply _ _ v c).trans ?_
  by_cases hc : c.val < 64
  · rw [dif_pos hc]
    refine (concatenate_pair_apply_left (s₁ := S64x1024) (s₂ := S64x1024) 0 _ _ _ (ix2 c v) rfl (ix2 (⟨c.val, hc⟩ : Fin 64) v)
      (fun b => match b with | ⟨0, _⟩ => rfl | ⟨1, _⟩ => rfl)).trans ?_
    exact congrArg₂ (· + ·) (congrArg₂ (· + ·) rfl
      (inTerm_apply hwI A 6#32 384 _ _ v _ (by show 64 * 6 + c.val = 384 + c.val; omega)))
      (inTerm_apply hwI A 7#32 448 _ _ v _ (by show 64 * 7 + c.val = 448 + c.val; omega))
  · rw [dif_neg hc]
    have hc' : c.val - 64 < 64 := by have := c.isLt; omega
    refine (concatenate_pair_apply_right (s₁ := S64x1024) (s₂ := S64x1024) 0 _ _ _ (ix2 c v) rfl rfl (ix2 (⟨c.val - 64, hc'⟩ : Fin 64) v)
      (fun b => match b with | ⟨0, _⟩ => fun hb => absurd rfl hb | ⟨1, _⟩ => fun _ => rfl)
      (by show c.val - 64 + 64 = c.val; omega)).trans ?_
    exact congrArg₂ (· + ·) (congrArg₂ (· + ·) (congrArg₂ (· + ·) rfl
      (outTerm_apply hwO A 5#32 320 _ _ v _ (by show 64 * 5 + (c.val - 64) = 320 + (c.val - 64); omega)))
      (outTerm_apply hwO A 6#32 384 _ _ v _ (by show 64 * 6 + (c.val - 64) = 384 + (c.val - 64); omega)))
      (outTerm_apply hwO A 7#32 448 _ _ v _ (by show 64 * 7 + (c.val - 64) = 448 + (c.val - 64); omega))

/-- The outgoing weights go through the same stacked product. -/
theorem stacked_apply' (h : Vec Ideal S1x1024x64 .f32) (wt : Vec Ideal S512x64 .f32) (r : Fin 512) (w : Fin 1024) :
    k0_pay5 (F := Ideal) h wt (ix2 r w) = ∑ j : Fin 64, wt (ix2 r j) * h (ix3 (0 : Fin 1) w j) :=
  stacked_apply h wt r w

/-- One class's incoming sum over the loaded blocks, in the order the message is written in: the indicator first,
    the node's state before the weight (products of extended reals commute). -/
theorem sIn_eq (x0 : Vec Ideal S1x1024x64 .f32) (x1 : Vec Ideal S1x1024x1024 .i32) (x2 : Vec Ideal S512x64 .f32)
    (i : Fin 64) (v : Fin 1024) (e : ℕ) (he : e < 8) :
    sIn (k0_pay4 (F := Ideal) x0 x2) (k0_pay3 (F := Ideal) x1) i v e he
      = ∑ w : Fin 1024, ind (x1 (ix3 (0 : Fin 1) v w)) (BitVec.ofNat 32 e)
          * ∑ j : Fin 64, x0 (ix3 (0 : Fin 1) w j) * x2 (ix2 (⟨64 * e + i.val, by have := i.isLt; omega⟩ : Fin 512) j) := by
  unfold sIn
  refine Finset.sum_congr rfl fun w _ => ?_
  rw [stacked_apply, mul_comm]
  refine congrArg₂ (· * ·) ?_ (Finset.sum_congr rfl fun j _ => mul_comm _ _)
  exact congrArg (fun a => ind a (BitVec.ofNat 32 e)) (shapeCast_1ab_ab_apply x1 _ v w)

/-- One class's outgoing sum, likewise: the label is that of `(w, v)`. -/
theorem sOut_eq (x0 : Vec Ideal S1x1024x64 .f32) (x1 : Vec Ideal S1x1024x1024 .i32) (x3 : Vec Ideal S512x64 .f32)
    (i : Fin 64) (v : Fin 1024) (e : ℕ) (he : e < 8) :
    sOut (k0_pay5 (F := Ideal) x0 x3) (k0_pay3 (F := Ideal) x1) i v e he
      = ∑ w : Fin 1024, ind (x1 (ix3 (0 : Fin 1) w v)) (BitVec.ofNat 32 e)
          * ∑ j : Fin 64, x0 (ix3 (0 : Fin 1) w j) * x3 (ix2 (⟨64 * e + i.val, by have := i.isLt; omega⟩ : Fin 512) j) := by
  unfold sOut
  refine Finset.sum_congr rfl fun w _ => ?_
  rw [stacked_apply', mul_comm]
  refine congrArg₂ (· * ·) ?_ (Finset.sum_congr rfl fun j _ => mul_comm _ _)
  exact congrArg (fun a => ind a (BitVec.ofNat 32 e)) (shapeCast_1ab_ab_apply x1 _ w v)

/-- The graph whose node states, labels, stacked weights and bias row are the loaded blocks: the weight of class
    `e`, feature `i` is row `64 e + i` of the stack. -/
def blockGraph (x0 : Vec Ideal S1x1024x64 .f32) (x1 : Vec Ideal S1x1024x1024 .i32) (x2 x3 : Vec Ideal S512x64 .f32)
    (x4 : Vec Ideal S1x128 .f32) (v : Fin 1024) (c : Fin 128) : EReal :=
  graph (fun w j => x0 (ix3 (0 : Fin 1) w j)) (fun p q => x1 (ix3 (0 : Fin 1) p q))
    (fun e i j => x2 (ix2 (⟨64 * e.val + i.val, by have := e.isLt; have := i.isLt; omega⟩ : Fin 512) j))
    (fun e i j => x3 (ix2 (⟨64 * e.val + i.val, by have := e.isLt; have := i.isLt; omega⟩ : Fin 512) j))
    (fun c => x4 (ix2 (0 : Fin 1) c)) v c

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block, at node `v`, column `c`: the message of the loaded graph. -/
theorem out_apply (x0 : Vec Ideal S1x1024x64 .f32) (x1 : Vec Ideal S1x1024x1024 .i32) (x2 x3 : Vec Ideal S512x64 .f32)
    (x4 : Vec Ideal S1x128 .f32) (u : Fin 1) (v : Fin 1024) (c : Fin 128) :
    out0_5 (F := Ideal) x0 x1 x2 x3 x4 (ix3 u v c) = blockGraph x0 x1 x2 x3 x4 v c := by
  unfold out0_5
  rw [View.canon_unit_zero hz3]
  simp only [View.ld_unit_zero (S := S1x1024x64) hz3, View.ld_unit_zero (S := S1x1024x1024) hz3,
    View.ld_unit_zero (S := S512x64) hz2, View.ld_unit_zero (S := S1x128) hz2]
  refine (last_apply (k0_pay3 x1) (k0_pay4 x0 x2) (k0_pay5 x0 x3) _ _ x4 u v c).trans ?_
  unfold blockGraph graph
  refine congrArg₂ (· + ·) ?_ rfl
  by_cases hc : c.val < 64
  · rw [dif_pos hc, dif_pos hc, in2345_apply, in01_apply]
    simp only [sIn_eq]
    rfl
  · have hc' : c.val - 64 < 64 := by have := c.isLt; omega
    have e14 : k0_pay14 (F := Ideal) (k0_pay3 x1) (k0_pay5 x0 x3) (k0_pay7 x0 x1 x3) (k0_pay8 x1) (k0_pay9 x0 x3)
        (ix2 (⟨c.val - 64, hc'⟩ : Fin 64) v) = _ :=
      out1234_apply (k0_pay3 x1) (k0_pay5 x0 x3) (k0_pay7 x0 x1 x3) ⟨c.val - 64, hc'⟩ v
    rw [dif_neg hc, dif_neg hc, e14, out0_apply]
    simp only [sOut_eq]
    rfl

end Cert.KernelBody

end
-- ==== Proof.KernelValue.lean ====
/-
  From blocks to the array: the kernel's result array is the message of every graph of the batch.
-/
import proofs.«118873_j26465588478646_2_alg».proof.Proof.Gen.KernelIdeal.Value
import proofs.«118873_j26465588478646_2_alg».proof.Proof.KernelBody
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Message Cert.KernelBody
open Idealize.ShloMosaic.Pipeline (Dat)

variable (m : (ℓ : Loc nD τ sig) → Buf (Elt Ideal) ℓ) (ρ : Dev nD → PrngReg)

/-- The printed index maps over the 16 grid points: point `t` takes graph `t` of the node states, of the labels
    and of the result, and the whole of the two weight stacks and of the bias row. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-- The stacked incoming weights as the region finds them: the 8 × 64 × 64 argument recast to 512 × 64. -/
theorem V_v0 (c : Dev nD) :
    (V m c main_v0 : S512x64.Idx → EReal) = shapeCast S512x64 (m ((c : Thread nD τ).loc main_arg2)) shapeCasts_S8x64x64_S512x64 := by
  dsimp only [Gen.V, Gen.hostOps0]; after_results; rfl

/-- The stacked outgoing weights, likewise. -/
theorem V_v1 (c : Dev nD) :
    (V m c main_v1 : S512x64.Idx → EReal) = shapeCast S512x64 (m ((c : Thread nD τ).loc main_arg3)) shapeCasts_S8x64x64_S512x64 := by
  dsimp only [Gen.V, Gen.hostOps0]; after_results; rfl

/-- The bias as one row. -/
theorem V_v2 (c : Dev nD) :
    (V m c main_v2 : S1x128.Idx → EReal) = shapeCast S1x128 (m ((c : Thread nD τ).loc main_arg4)) shapeCasts_S128_S1x128 := by
  dsimp only [Gen.V, Gen.hostOps0]; after_results; rfl

/-- Row `64 e + i` of a recast weight stack is class `e`'s row `i`. -/
theorem stack_apply (W : S8x64x64.Idx → EReal) (e : Fin 8) (i j : Fin 64) (r : Fin 512) (hr : r.val = 64 * e.val + i.val) :
    shapeCast S512x64 W shapeCasts_S8x64x64_S512x64 (ix2 r j) = W (ix3 e i j) :=
  shapeCast_apply W shapeCasts_S8x64x64_S512x64 (ix2 r j) (ix3 e i j) (by
    rw [Shape.rowMajor_val_three, Shape.rowMajor_val_two]
    show (e.val * 64 + i.val) * 64 + j.val = r.val * 64 + j.val
    rw [hr]; ring)

/-- Entry `c` of the bias row is entry `c` of the bias. -/
theorem row_apply (x : S128.Idx → EReal) (c : Fin 128) :
    shapeCast S1x128 x shapeCasts_S128_S1x128 (ix2 (0 : Fin 1) c) = x (ix1 c) :=
  shapeCast_apply x shapeCasts_S128_S1x128 (ix2 (0 : Fin 1) c) (ix1 c) (by
    rw [Shape.rowMajor_val_two, Shape.rowMajor_val_one]
    show c.val = 0 * 128 + c.val
    omega)

/-- Point `t`'s block of the node states is graph `t`. -/
theorem blk0 (c : Dev nD) (t : Fin cfg0.N) (w : Fin 1024) (j : Fin 64) :
    iblk m c 0 t (ix3 (0 : Fin 1) w j) = m ((c : Thread nD τ).loc main_arg0) (ix3 (⟨t.val, t.isLt⟩ : Fin 16) w j) := by
  rw [← V_main_arg0 m c]
  show V m c main_arg0 (((cfg0.win 0).blk t).view.emb (ix3 (0 : Fin 1) w j)) = _
  refine congrArg _ (funext fun a => Fin.ext ?_)
  obtain ⟨⟨e0, e1, e2⟩, -⟩ := idx_facts t
  match a with
  | ⟨0, _⟩ => show win0_0.index t (0 : Fin 3) * 1 + 1 * 0 = t.val; omega
  | ⟨1, _⟩ => show win0_0.index t (1 : Fin 3) * 1024 + 1 * w.val = w.val; omega
  | ⟨2, _⟩ => show win0_0.index t (2 : Fin 3) * 64 + 1 * j.val = j.val; omega

/-- Point `t`'s block of the labels is graph `t`'s. -/
theorem blk1 (c : Dev nD) (t : Fin cfg0.N) (p q : Fin 1024) :
    iblk m c 1 t (ix3 (0 : Fin 1) p q) = m ((c : Thread nD τ).loc main_arg1) (ix3 (⟨t.val, t.isLt⟩ : Fin 16) p q) := by
  rw [← V_main_arg1 m c]
  show V m c main_arg1 (((cfg0.win 1).blk t).view.emb (ix3 (0 : Fin 1) p q)) = _
  refine congrArg _ (funext fun a => Fin.ext ?_)
  obtain ⟨-, ⟨e0, e1, e2⟩, -⟩ := idx_facts t
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 1024 + 1 * q.val = q.val; omega

/-- Every point's block of the stacked incoming weights is the whole stack: class `e`'s row `i` at row `64 e + i`. -/
theorem blk2 (c : Dev nD) (t : Fin cfg0.N) (e : Fin 8) (i j : Fin 64) (r : Fin 512) (hr : r.val = 64 * e.val + i.val) :
    iblk m c 2 t (ix2 r j) = m ((c : Thread nD τ).loc main_arg2) (ix3 e i j) := by
  refine Eq.trans ?_ (stack_apply _ e i j r hr)
  rw [← V_v0 m c]
  show V m c main_v0 (((cfg0.win 2).blk t).view.emb (ix2 r j)) = _
  refine congrArg _ (funext fun a => Fin.ext ?_)
  obtain ⟨-, -, ⟨e0, e1⟩, -⟩ := idx_facts t
  match a with
  | ⟨0, _⟩ => show win0_2.index t (0 : Fin 2) * 512 + 1 * r.val = r.val; omega
  | ⟨1, _⟩ => show win0_2.index t (1 : Fin 2) * 64 + 1 * j.val = j.val; omega

/-- The same for the outgoing weights. -/
theorem blk3 (c : Dev nD) (t : Fin cfg0.N) (e : Fin 8) (i j : Fin 64) (r : Fin 512) (hr : r.val = 64 * e.val + i.val) :
    iblk m c 3 t (ix2 r j) = m ((c : Thread nD τ).loc main_arg3) (ix3 e i j) := by
  refine Eq.trans ?_ (stack_apply _ e i j r hr)
  rw [← V_v1 m c]
  show V m c main_v1 (((cfg0.win 3).blk t).view.emb (ix2 r j)) = _
  refine congrArg _ (funext fun a => Fin.ext ?_)
  obtain ⟨-, -, -, ⟨e0, e1⟩, -⟩ := idx_facts t
  match a with
  | ⟨0, _⟩ => show win0_3.index t (0 : Fin 2) * 512 + 1 * r.val = r.val; omega
  | ⟨1, _⟩ => show win0_3.index t (1 : Fin 2) * 64 + 1 * j.val = j.val; omega

/-- Every point's block of the bias row is the whole row. -/
theorem blk4 (c : Dev nD) (t : Fin cfg0.N) (cc : Fin 128) :
    iblk m c 4 t (ix2 (0 : Fin 1) cc) = m ((c : Thread nD τ).loc main_arg4) (ix1 cc) := by
  refine Eq.trans ?_ (row_apply _ cc)
  rw [← V_v2 m c]
  show V m c main_v2 (((cfg0.win 4).blk t).view.emb (ix2 (0 : Fin 1) cc)) = _
  refine congrArg _ (funext fun a => Fin.ext ?_)
  obtain ⟨-, -, -, -, ⟨e0, e1⟩, -⟩ := idx_facts t
  match a with
  | ⟨0, _⟩ => show win0_4.index t (0 : Fin 2) * 1 + 1 * 0 = 0; omega
  | ⟨1, _⟩ => show win0_4.index t (1 : Fin 2) * 128 + 1 * cc.val = cc.val; omega

/-- The result as one function of the five argument arrays of core `c`. -/
abbrev result (c : Dev nD) : S16x1024x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the result: the message of graph `t`. -/
theorem flushed_eq (c : Dev nD) (t : Fin cfg0.N) :
    (dats m 0 c).flushed 5 t = ((cfg0.win 5).blk t).view.read (Elt Ideal) (result m c) := by
  rw [Value.flushed5]
  funext (y : S1x1024x128.Idx)
  obtain ⟨u, v, cc, rfl⟩ : ∃ (u : Fin 1) (v : Fin 1024) (cc : Fin 128), y = ix3 u v cc := ⟨y 0, y 1, y 2, eq_ix3 y⟩
  show out0_5 (iblk m c 0 t) (iblk m c 1 t) (iblk m c 2 t) (iblk m c 3 t) (iblk m c 4 t) (ix3 u v cc)
    = result m c (((cfg0.win 5).blk t).view.emb (ix3 u v cc))
  have hemb : ((cfg0.win 5).blk t).view.emb (ix3 u v cc) = ix3 (⟨t.val, t.isLt⟩ : Fin 16) v cc := by
    funext a; apply Fin.ext
    obtain ⟨-, -, -, -, -, ⟨e0, e1, e2⟩⟩ := idx_facts t
    have hu : u.val = 0 := by omega
    match a with
    | ⟨0, _⟩ => show win0_5.index t (0 : Fin 3) * 1 + 1 * u.val = t.val; omega
    | ⟨1, _⟩ => show win0_5.index t (1 : Fin 3) * 1024 + 1 * v.val = v.val; omega
    | ⟨2, _⟩ => show win0_5.index t (2 : Fin 3) * 128 + 1 * cc.val = cc.val; omega
  rw [hemb]
  refine (out_apply (iblk m c 0 t) (iblk m c 1 t) (iblk m c 2 t) (iblk m c 3 t) (iblk m c 4 t) u v cc).trans ?_
  unfold blockGraph result G
  have e0 : (fun w j => iblk m c 0 t (ix3 (0 : Fin 1) w j)) = fun w j => m ((c : Thread nD τ).loc main_arg0) (ix3 (⟨t.val, t.isLt⟩ : Fin 16) w j) :=
    funext fun w => funext fun j => blk0 m c t w j
  have e1 : (fun p q => iblk m c 1 t (ix3 (0 : Fin 1) p q)) = fun p q => m ((c : Thread nD τ).loc main_arg1) (ix3 (⟨t.val, t.isLt⟩ : Fin 16) p q) :=
    funext fun p => funext fun q => blk1 m c t p q
  have e2 : (fun (e : Fin 8) (i j : Fin 64) => iblk m c 2 t (ix2 (⟨64 * e.val + i.val, by have := e.isLt; have := i.isLt; omega⟩ : Fin 512) j))
      = fun e i j => m ((c : Thread nD τ).loc main_arg2) (ix3 e i j) :=
    funext fun e => funext fun i => funext fun j => blk2 m c t e i j _ rfl
  have e3 : (fun (e : Fin 8) (i j : Fin 64) => iblk m c 3 t (ix2 (⟨64 * e.val + i.val, by have := e.isLt; have := i.isLt; omega⟩ : Fin 512) j))
      = fun e i j => m ((c : Thread nD τ).loc main_arg3) (ix3 e i j) :=
    funext fun e => funext fun i => funext fun j => blk3 m c t e i j _ rfl
  have e4 : (fun cc => iblk m c 4 t (ix2 (0 : Fin 1) cc)) = fun cc => m ((c : Thread nD τ).loc main_arg4) (ix1 cc) :=
    funext fun cc => blk4 m c t cc
  rw [e0, e1, e2, e3, e4]

/-- An index of the result array is in point `t`'s block iff each coordinate is in the block's range on its axis. -/
theorem mem_blk (t : Fin cfg0.N) (i : S16x1024x128.Idx) :
    i ∈ ((cfg0.win 5).blk t).view.set ↔ ∀ a : Fin 3, win0_5.index t a * S1x1024x128.size a ≤ (i a).val ∧ (i a).val < win0_5.index t a * S1x1024x128.size a + S1x1024x128.size a := by
  show i ∈ ((View.whole main_v3).slice (win0_5.rect t)).set ↔ _
  rw [View.set_slice_whole, Rect.mem_set_unit]
  exact Iff.rfl

/-- Every index of the result array is in some point's block: graph `b`'s rows are point `b`'s. -/
theorem cover (i : S16x1024x128.Idx) :
    ∃ t : Fin cfg0.N, (cfg0.win 5).flush t = true ∧ i ∈ ((cfg0.win 5).blk t).view.set := by
  have h0 : (i 0).val < 16 := (i 0).isLt
  have h1 : (i 1).val < 1024 := (i 1).isLt
  have h2 : (i 2).val < 128 := (i 2).isLt
  refine ⟨⟨(i 0).val, h0⟩, flush0_5 _, ?_⟩
  rw [mem_blk]
  obtain ⟨-, -, -, -, -, ⟨e0, e1, e2⟩⟩ := idx_facts ⟨(i 0).val, h0⟩
  have e0' : win0_5.index ⟨(i 0).val, h0⟩ (0 : Fin 3) = (i 0).val := e0
  intro a
  match a with
  | ⟨0, _⟩ => show win0_5.index ⟨(i 0).val, h0⟩ (0 : Fin 3) * 1 ≤ (i 0).val ∧ (i 0).val < win0_5.index ⟨(i 0).val, h0⟩ (0 : Fin 3) * 1 + 1; omega
  | ⟨1, _⟩ => show win0_5.index ⟨(i 0).val, h0⟩ (1 : Fin 3) * 1024 ≤ (i 1).val ∧ (i 1).val < win0_5.index ⟨(i 0).val, h0⟩ (1 : Fin 3) * 1024 + 1024; omega
  | ⟨2, _⟩ => show win0_5.index ⟨(i 0).val, h0⟩ (2 : Fin 3) * 128 ≤ (i 2).val ∧ (i 2).val < win0_5.index ⟨(i 0).val, h0⟩ (2 : Fin 3) * 128 + 128; omega

/-- THE ARRAY after the run is the result function of the argument arrays. -/
theorem final (c : Dev nD) : (dats m 0 c).arrAt 5 cfg0.N = result m c :=
  (dats m 0 c).arrAt_eq_of_cover 5 (result m c) (fun t _ => flushed_eq m c t) cover

/-- The kernel's run: the result array ends at the message of every graph, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference read at an index: it is the message of every graph of the batch.
-/
import proofs.«118873_j26465588478646_2_alg».proof.Proof.Gen.ReferenceIdeal.Read
import proofs.«118873_j26465588478646_2_alg».proof.Proof.Spec
import Idealize.ShloMosaic.Lib.ValueLayout

noncomputable section

open scoped BigOperators

namespace Cert.ReferenceIdeal.Whole

open Cert.ReferenceIdeal Cert.ReferenceIdeal.Gen Cert.ReferenceIdeal.Read
open Idealize.ShloMosaic Idealize.ShloMosaic.ValueIdx Cert.Message

/-- Node states against one class's weight matrix, contracting the state's feature axis with the matrix's second
    axis: at graph `b`, node `w`, feature `i` the sum over `j` of the state `(b, w, j)` times the weight `(i, j)`. -/
theorem nodeDot_apply (x : FVec Ideal S16x1024x64 .f32) (y : FVec Ideal S64x64 .f32) (b : Fin 16) (w : Fin 1024) (i : Fin 64) :
    Host.dotGeneral (F := Ideal) dot_S16x1024x64_S64x64_S16x1024x64_2_1_01_0_n_n none x y (ix3 b w i)
      = ∑ j : Fin 64, x (ix3 b w j) * y (ix2 i j) := by
  simp only [Host.dotGeneral]
  rw [Ideal.dotGeneral_apply, ← Equiv.sum_comp (contrEquiv1 dot_S16x1024x64_S64x64_S16x1024x64_2_1_01_0_n_n 64 rfl rfl).symm]
  refine Finset.sum_congr rfl fun k _ => ?_
  have hk := contrEquiv1_symm_val dot_S16x1024x64_S64x64_S16x1024x64_2_1_01_0_n_n 64 rfl rfl k
  refine congrArg₂ (· * ·) (congrArg x (funext fun a => Fin.ext ?_)) (congrArg y (funext fun a => Fin.ext ?_))
  · match a with
    | ⟨0, _⟩ => exact lhs_main_v6_0 _ _
    | ⟨1, _⟩ => exact lhs_main_v6_1 _ _
    | ⟨2, _⟩ => exact (lhs_main_v6_2 _ _).trans hk
  · match a with
    | ⟨0, _⟩ => exact rhs_main_v6_0 _ _
    | ⟨1, _⟩ => exact (rhs_main_v6_1 _ _).trans hk

/-- A mask against the per-class node products, graph by graph: at graph `b`, node `v`, feature `i` the sum over
    `w` of the mask `(b, v, w)` times the product `(b, w, i)`. -/
theorem maskDot_apply (M : FVec Ideal S16x1024x1024 .f32) (H : FVec Ideal S16x1024x64 .f32) (b : Fin 16) (v : Fin 1024) (i : Fin 64) :
    Host.dotGeneral (F := Ideal) dot_S16x1024x1024_S16x1024x64_S16x1024x64_2_1_1_2_0_0 none M H (ix3 b v i)
      = ∑ w : Fin 1024, M (ix3 b v w) * H (ix3 b w i) := by
  simp only [Host.dotGeneral]
  rw [Ideal.dotGeneral_apply, ← Equiv.sum_comp (contrEquiv1 dot_S16x1024x1024_S16x1024x64_S16x1024x64_2_1_1_2_0_0 1024 rfl rfl).symm]
  refine Finset.sum_congr rfl fun k _ => ?_
  have hk := contrEquiv1_symm_val dot_S16x1024x1024_S16x1024x64_S16x1024x64_2_1_1_2_0_0 1024 rfl rfl k
  refine congrArg₂ (· * ·) (congrArg M (funext fun a => Fin.ext ?_)) (congrArg H (funext fun a => Fin.ext ?_))
  · match a with
    | ⟨0, _⟩ => exact lhs_main_v7_0 _ _
    | ⟨1, _⟩ => exact lhs_main_v7_1 _ _
    | ⟨2, _⟩ => exact (lhs_main_v7_2 _ _).trans hk
  · match a with
    | ⟨0, _⟩ => exact rhs_main_v7_0 _ _
    | ⟨1, _⟩ => exact (rhs_main_v7_1 _ _).trans hk
    | ⟨2, _⟩ => exact rhs_main_v7_2 _ _

/-- One class's 64 × 64 weight matrix, cut out of the 8 × 64 × 64 array at `o` and recast: entry `(i, j)`. -/
theorem weight_apply (W : FVec Ideal S8x64x64 .f32) (o : ℕ) (ho : o < 8) (hs : S8x64x64.Slices ![o, 0, 0] S1x64x64)
    (i j : Fin 64) :
    shapeCast S64x64 (extractStridedSlice S1x64x64 ![o, 0, 0] W hs) shapeCasts_S1x64x64_S64x64 (ix2 i j)
      = W (ix3 (⟨o, ho⟩ : Fin 8) i j) :=
  (shapeCast_1ab_ab_apply _ _ i j).trans
    (extractStridedSlice_apply ![o, 0, 0] W hs (ix3 (0 : Fin 1) i j) (ix3 (⟨o, ho⟩ : Fin 8) i j) fun a =>
      match a with
      | ⟨0, _⟩ => rfl
      | ⟨1, _⟩ => (Nat.zero_add _).symm
      | ⟨2, _⟩ => (Nat.zero_add _).symm)

/-- The comparison of the labels with a class, converted: the indicator. -/
theorem mask_apply (adj : IVec S16x1024x1024 32) (e : BitVec 32) (y : S16x1024x1024.Idx) :
    (uitofp (F := Ideal) .f32 (cmpi .eq adj (broadcastInDim S16x1024x1024 ![] bcast_S_S16x1024x1024 (constantI S_ 32 e)))) y
      = ind (adj y) e := by
  show FloatOps.uitofp (F := Ideal) .f32 (IntOp.cmpi .eq (adj y) (broadcastInDim S16x1024x1024 ![] bcast_S_S16x1024x1024 (constantI S_ 32 e) y)) = _
  rw [broadcastInDim_apply _ bcast_S_S16x1024x1024 (constantI S_ 32 e) y (fun a => a.elim0) (fun a => a.elim0)]
  rfl

/-- One class's stage of the incoming message as the program spells it, at graph `b`, node `v`, feature `i`. -/
theorem classIn_apply (x0 : FVec Ideal S16x1024x64 .f32) (adj : IVec S16x1024x1024 32) (W : FVec Ideal S8x64x64 .f32)
    (o : ℕ) (ho : o < 8) (hs : S8x64x64.Slices ![o, 0, 0] S1x64x64) (e : BitVec 32) (b : Fin 16) (v : Fin 1024) (i : Fin 64) :
    Host.dotGeneral (F := Ideal) dot_S16x1024x1024_S16x1024x64_S16x1024x64_2_1_1_2_0_0 none
        (uitofp .f32 (cmpi .eq adj (broadcastInDim S16x1024x1024 ![] bcast_S_S16x1024x1024 (constantI S_ 32 e))))
        (Host.dotGeneral dot_S16x1024x64_S64x64_S16x1024x64_2_1_01_0_n_n none x0
          (shapeCast S64x64 (extractStridedSlice S1x64x64 ![o, 0, 0] W hs) shapeCasts_S1x64x64_S64x64)) (ix3 b v i)
      = ∑ w : Fin 1024, ind (adj (ix3 b v w)) e * ∑ j : Fin 64, x0 (ix3 b w j) * W (ix3 (⟨o, ho⟩ : Fin 8) i j) := by
  refine (maskDot_apply _ _ b v i).trans (Finset.sum_congr rfl fun w _ => ?_)
  refine congrArg₂ (· * ·) (mask_apply adj e _) ((nodeDot_apply _ _ b w i).trans (Finset.sum_congr rfl fun j _ => ?_))
  exact congrArg (x0 (ix3 b w j) * ·) (weight_apply W o ho hs i j)

/-- The same stage over the labels with their two node axes exchanged: the label read is that of `(w, v)`. -/
theorem classOut_apply (x0 : FVec Ideal S16x1024x64 .f32) (adj : IVec S16x1024x1024 32) (W : FVec Ideal S8x64x64 .f32)
    (o : ℕ) (ho : o < 8) (hs : S8x64x64.Slices ![o, 0, 0] S1x64x64) (e : BitVec 32) (b : Fin 16) (v : Fin 1024) (i : Fin 64) :
    Host.dotGeneral (F := Ideal) dot_S16x1024x1024_S16x1024x64_S16x1024x64_2_1_1_2_0_0 none
        (uitofp .f32 (cmpi .eq (transpose S16x1024x1024 [0, 2, 1] adj transposes_S16x1024x1024_S16x1024x1024_0_2_1)
          (broadcastInDim S16x1024x1024 ![] bcast_S_S16x1024x1024 (constantI S_ 32 e))))
        (Host.dotGeneral dot_S16x1024x64_S64x64_S16x1024x64_2_1_01_0_n_n none x0
          (shapeCast S64x64 (extractStridedSlice S1x64x64 ![o, 0, 0] W hs) shapeCasts_S1x64x64_S64x64)) (ix3 b v i)
      = ∑ w : Fin 1024, ind (adj (ix3 b w v)) e * ∑ j : Fin 64, x0 (ix3 b w j) * W (ix3 (⟨o, ho⟩ : Fin 8) i j) :=
  (classIn_apply x0 _ W o ho hs e b v i).trans (Finset.sum_congr rfl fun w _ =>
    congrArg (fun a => ind a e * _) (transpose_ix3_021_apply adj _ b v w))

/-- The zero every sum over the classes starts from. -/
theorem zero_apply (y : S16x1024x64.Idx) : val_main_v0 (F := Ideal) y = Ideal.ofBits .f32 0x00000000#32 :=
  (val_main_v0_apply y).trans rfl
theorem zero_apply' (y : S16x1024x64.Idx) : val_main_v66 (F := Ideal) y = Ideal.ofBits .f32 0x00000000#32 :=
  (val_main_v66_apply y).trans rfl

/-- The bias vector spread over the graphs and the nodes: column `c`'s entry everywhere. -/
theorem bias_apply (x4 : FVec Ideal S128 .f32) (b : Fin 16) (v : Fin 1024) (c : Fin 128) :
    val_main_v133 (F := Ideal) x4 (ix3 b v c) = x4 (ix1 c) := by
  rw [val_main_v133_apply, val_main_v132_apply]
  exact congrArg x4 (funext fun a => match a with | ⟨0, _⟩ => rfl)

/-- The reference's result is the message of every graph, index by index. -/
theorem result_eq (x0 : FVec Ideal S16x1024x64 .f32) (x1 : IVec S16x1024x1024 32) (x2 x3 : FVec Ideal S8x64x64 .f32)
    (x4 : FVec Ideal S128 .f32) :
    val_main_v134 (F := Ideal) x0 x1 x2 x3 x4 = G x0 x1 x2 x3 x4 := by
  funext y
  obtain ⟨b, v, c, rfl⟩ : ∃ (b : Fin 16) (v : Fin 1024) (c : Fin 128), y = ix3 b v c := ⟨y 0, y 1, y 2, eq_ix3 y⟩
  rw [val_main_v134_apply]
  unfold G graph
  refine congrArg₂ (· + ·) ?_ (bias_apply x4 b v c)
  unfold val_main_v131
  by_cases hc : c.val < 64
  · rw [dif_pos hc]
    refine (concatenate_pair_apply_left (s₁ := S16x1024x64) (s₂ := S16x1024x64) 2 _ _ _ (ix3 b v c) rfl
      (ix3 b v (⟨c.val, hc⟩ : Fin 64)) (fun a => match a with | ⟨0, _⟩ => rfl | ⟨1, _⟩ => rfl | ⟨2, _⟩ => rfl)).trans ?_
    unfold val_main_v64 val_main_v56 val_main_v48 val_main_v40 val_main_v32 val_main_v24 val_main_v16 val_main_v8
    unfold msg acc8
    exact congrArg₂ (· + ·) (congrArg₂ (· + ·) (congrArg₂ (· + ·) (congrArg₂ (· + ·) (congrArg₂ (· + ·) (congrArg₂ (· + ·) (congrArg₂ (· + ·) (congrArg₂ (· + ·) (zero_apply _) (classIn_apply x0 x1 x2 0 (by decide) slices_S8x64x64_S1x64x64_0_0_0 0#32 b v ⟨c.val, hc⟩)) (classIn_apply x0 x1 x2 1 (by decide) slices_S8x64x64_S1x64x64_1_0_0 1#32 b v ⟨c.val, hc⟩)) (classIn_apply x0 x1 x2 2 (by decide) slices_S8x64x64_S1x64x64_2_0_0 2#32 b v ⟨c.val, hc⟩)) (classIn_apply x0 x1 x2 3 (by decide) slices_S8x64x64_S1x64x64_3_0_0 3#32 b v ⟨c.val, hc⟩)) (classIn_apply x0 x1 x2 4 (by decide) slices_S8x64x64_S1x64x64_4_0_0 4#32 b v ⟨c.val, hc⟩)) (classIn_apply x0 x1 x2 5 (by decide) slices_S8x64x64_S1x64x64_5_0_0 5#32 b v ⟨c.val, hc⟩)) (classIn_apply x0 x1 x2 6 (by decide) slices_S8x64x64_S1x64x64_6_0_0 6#32 b v ⟨c.val, hc⟩)) (classIn_apply x0 x1 x2 7 (by decide) slices_S8x64x64_S1x64x64_7_0_0 7#32 b v ⟨c.val, hc⟩)
  · rw [dif_neg hc]
    have hc' : c.val - 64 < 64 := by have := c.isLt; omega
    refine (concatenate_pair_apply_right (s₁ := S16x1024x64) (s₂ := S16x1024x64) 2 _ _ _ (ix3 b v c) rfl rfl
      (ix3 b v (⟨c.val - 64, hc'⟩ : Fin 64))
      (fun a => match a with | ⟨0, _⟩ => fun _ => rfl | ⟨1, _⟩ => fun _ => rfl | ⟨2, _⟩ => fun h => absurd rfl h)
      (by show c.val - 64 + 64 = c.val; omega)).trans ?_
    unfold val_main_v130 val_main_v122 val_main_v114 val_main_v106 val_main_v98 val_main_v90 val_main_v82 val_main_v74
    unfold msg acc8
    exact congrArg₂ (· + ·) (congrArg₂ (· + ·) (congrArg₂ (· + ·) (congrArg₂ (· + ·) (congrArg₂ (· + ·) (congrArg₂ (· + ·) (congrArg₂ (· + ·) (congrArg₂ (· + ·) (zero_apply' _) (classOut_apply x0 x1 x3 0 (by decide) slices_S8x64x64_S1x64x64_0_0_0 0#32 b v ⟨c.val - 64, hc'⟩)) (classOut_apply x0 x1 x3 1 (by decide) slices_S8x64x64_S1x64x64_1_0_0 1#32 b v ⟨c.val - 64, hc'⟩)) (classOut_apply x0 x1 x3 2 (by decide) slices_S8x64x64_S1x64x64_2_0_0 2#32 b v ⟨c.val - 64, hc'⟩)) (classOut_apply x0 x1 x3 3 (by decide) slices_S8x64x64_S1x64x64_3_0_0 3#32 b v ⟨c.val - 64, hc'⟩)) (classOut_apply x0 x1 x3 4 (by decide) slices_S8x64x64_S1x64x64_4_0_0 4#32 b v ⟨c.val - 64, hc'⟩)) (classOut_apply x0 x1 x3 5 (by decide) slices_S8x64x64_S1x64x64_5_0_0 5#32 b v ⟨c.val - 64, hc'⟩)) (classOut_apply x0 x1 x3 6 (by decide) slices_S8x64x64_S1x64x64_6_0_0 6#32 b v ⟨c.val - 64, hc'⟩)) (classOut_apply x0 x1 x3 7 (by decide) slices_S8x64x64_S1x64x64_7_0_0 7#32 b v ⟨c.val - 64, hc'⟩)

end Cert.ReferenceIdeal.Whole

end
-- ==== Proof.lean ====
/-
  A gated graph network's message step over a batch of 16 graphs of 1024 nodes with 64 features, against its
  plain statement.

  Every ordered pair of nodes `(v, w)` of a graph carries a label `adj (v, w)`, one of eight edge classes, and each
  class `e` has a 64 × 64 weight matrix for incoming edges and one for outgoing edges. The result row of node `v` is

      in  (v, i) = Σ_e Σ_w [adj (v, w) = e] · Σ_j h (w, j) · Win  (e, i, j)      in columns 0 … 63,
      out (v, i) = Σ_e Σ_w [adj (w, v) = e] · Σ_j h (w, j) · Wout (e, i, j)      in columns 64 … 127,

  plus a bias per column (`Cert.Message.G`, Proof/Spec.lean).

  The kernel takes one graph per grid point. It multiplies the eight weight matrices, stacked to 512 × 64, by the
  transposed node states in one product (row `64 e + i` of the 512 × 1024 result is class `e`, feature `i`), then
  for each class multiplies its 64 rows by the class's 0/1 mask of the labels — transposed for the incoming
  message, as it is for the outgoing one —, adds the classes up from zero, stacks the two 64 × 1024 sums,
  transposes the stack to 1024 × 128 and adds the bias row. The reference computes, for each class, the node
  states times the class's matrix and the mask times that, graph by graph, adds the classes up from zero, does the
  same over the labels with their node axes exchanged, joins the two along the columns and adds the bias.

  On the extended reals both are the same nested sums with the factors of each product in another order
  (`h · W` against `W · h`, mask · product against product · mask): products commute, the sums run over the same
  index sets in the same nesting, the classes are added in the same order from the same zero word, and changes of
  float format are the identity. No law that needs finite entries is used, so the precondition is never opened.
  The indicator is the comparison's bit read as a number: the kernel widens the bit to 32 bits and reads it signed,
  the reference reads it unsigned, and a bit is 0 or 1 either way (`Cert.Message.sitofp_setWidth_eq_ind`).

  Proof/KernelBody.lean reads the kernel's body at node `v`, column `c` as the message of the loaded blocks;
  Proof/KernelValue.lean reads each block off the argument arrays (the stacked weights and the bias row are
  recasts made before the kernel runs), shows that point `t` writes graph `t`'s rows and that the sixteen blocks
  fill the result array; Proof/RefValue.lean reads the reference's result at an index. The idealized kernel is the
  kernel's own text read on the extended reals (the ideal pass rewrote nothing), so `preserves` asks nothing.
-/
import proofs.«118873_j26465588478646_2_alg».proof.Defs
import proofs.«118873_j26465588478646_2_alg».proof.Proof.Gen.Kernel
import proofs.«118873_j26465588478646_2_alg».proof.Proof.Gen.Kernel.Skeleton
import proofs.«118873_j26465588478646_2_alg».proof.Proof.Gen.Kernel.Launch
import proofs.«118873_j26465588478646_2_alg».proof.Proof.Gen.Kernel.Points
import proofs.«118873_j26465588478646_2_alg».proof.Proof.Gen.Kernel.Frame
import proofs.«118873_j26465588478646_2_alg».proof.Proof.Gen.KernelIdeal
import proofs.«118873_j26465588478646_2_alg».proof.Proof.Gen.KernelIdeal.Skeleton
import proofs.«118873_j26465588478646_2_alg».proof.Proof.Gen.KernelIdeal.Launch
import proofs.«118873_j26465588478646_2_alg».proof.Proof.Gen.KernelIdeal.Points
import proofs.«118873_j26465588478646_2_alg».proof.Proof.Gen.KernelIdeal.Frame
import proofs.«118873_j26465588478646_2_alg».proof.Proof.Gen.ReferenceIdeal
import proofs.«118873_j26465588478646_2_alg».proof.Proof.Gen.Pre_finite_inputs
import proofs.«118873_j26465588478646_2_alg».proof.Proof.Gen.KernelIdeal.Value
import proofs.«118873_j26465588478646_2_alg».proof.Proof.Gen.ReferenceIdeal.Run
import proofs.«118873_j26465588478646_2_alg».proof.Proof.Gen.ReferenceIdeal.Read
import proofs.«118873_j26465588478646_2_alg».proof.Proof.KernelValue
import proofs.«118873_j26465588478646_2_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the message of every graph of the batch, as one function of the argument arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v134_eq, (hagree c).1, (hagree c).2.1, (hagree c).2.2.1, (hagree c).2.2.2.1,
    (hagree c).2.2.2.2]
  exact Cert.ReferenceIdeal.Whole.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
